-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S5000x1 : Shape := ⟨2, ![5000, 1]⟩
abbrev S1x64 : Shape := ⟨2, ![1, 64]⟩

abbrev nBuf : Space → Nat
  | .hbm => 47
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  Two graph layers with mean aggregation, as ONE function of the argument arrays, entry by entry.

  A layer takes node features x (one row of 64 numbers per node), the edge table (a source and a destination node per
  edge), two 64 × 64 weight matrices and a bias.  For every node p it adds up the feature rows of the sources of the
  edges that end in p (`aggOf`), divides that sum by the number of such edges, or by one when there is none
  (`cntOf` counts them), and returns at (p, q)

      ∑ k, (agg (p, k) / max (cnt p) 1) · W_l (q, k)  +  ∑ k, x (p, k) · W_r (q, k)  +  b q .

  The network is a layer, a clamp at zero from below, and a second layer on the clamped features with the same edge
  table (`net`).  Which feature rows an edge moves, and where a row lands, is decided by the edge table's words alone:
  that part (the gather and the scatter-add of the host) is kept as a whole-array function and never opened.
-/
import proofs.«176702_j27633819583002_1_alg».proof.Proof.Gen.KernelIdeal
import Idealize.ShloMosaic.Lib.ValueIdx
import Idealize.ShloMosaic.PureOps.Ideal

noncomputable section

open scoped BigOperators

namespace Cert.Sage

open Idealize.ShloMosaic Idealize.ShloMosaic.ValueIdx Cert.KernelIdeal Cert.KernelIdeal.Facts₀

/-- Node features: 100000 rows of 64 extended reals. -/
abbrev Nodes := FVec Ideal S100000x64 .f32
/-- The edge table: row 0 the source node of each of the 1600000 edges, row 1 its destination node. -/
abbrev Edges := IVec S2x1600000 32
/-- One index word per edge. -/
abbrev EdgeWords := IVec S1600000 32
abbrev Weights := FVec Ideal S64x64 .f32
abbrev Bias := FVec Ideal S64 .f32
abbrev Counts := FVec Ideal S100000 .f32

/-- Each edge's source node: row 0 of the edge table. -/
def srcRow (e : Edges) : EdgeWords :=
  shapeCast _ (extractStridedSlice S1x1600000 ![0, 0] e slices_S2x1600000_S1x1600000_0_0) shapeCasts_S1x1600000_S1600000

/-- Each edge's destination node: row 1 of the edge table. -/
def dstRow (e : Edges) : EdgeWords :=
  shapeCast _ (extractStridedSlice S1x1600000 ![1, 0] e slices_S2x1600000_S1x1600000_1_0) shapeCasts_S1x1600000_S1600000

/-- For every node the sum of the rows of `feat` named by the source words (a negative word counted from the end of
    the node axis) of the edges whose destination word names that node. -/
def aggRows (src dst : EdgeWords) (feat : Nodes) : Nodes :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- For every node the number of edges whose destination word names it. -/
def cntRows (dst : EdgeWords) : Counts :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The summed incoming rows, from the edge table. -/
def aggOf (e : Edges) (feat : Nodes) : Nodes := aggRows (srcRow e) (dstRow e) feat

/-- The in-degree of every node, from the edge table. -/
def cntOf (e : Edges) : Counts := cntRows (dstRow e)

/-- One layer at the entry (p, q): the mean of the incoming rows against `Wl`, the node's own row against `Wr`, the
    bias.  `cnt p` is the number of incoming rows of node p. -/
def layerAt (agg : Nodes) (cnt : Fin 100000 → EReal) (x : Nodes) (Wl Wr : Weights) (b : Bias) (p : Fin 100000) (q : Fin 64) : EReal :=
  ((∑ k : Fin 64, Ideal.div (agg (ix2 p k)) (max (cnt p) (Ideal.ofBits .f32 0x3F800000#32)) * Wl (ix2 q k))
    + ∑ k : Fin 64, x (ix2 p k) * Wr (ix2 q k))
  + b (ix1 q)

/-- One layer, as an array. -/
def layer (agg : Nodes) (cnt : Fin 100000 → EReal) (x : Nodes) (Wl Wr : Weights) (b : Bias) : Nodes :=
  fun i => layerAt agg cnt x Wl Wr b (i 0) (i 1)

theorem layer_apply (agg : Nodes) (cnt : Fin 100000 → EReal) (x : Nodes) (Wl Wr : Weights) (b : Bias) (p : Fin 100000) (q : Fin 64) :
    layer agg cnt x Wl Wr b (ix2 p q) = layerAt agg cnt x Wl Wr b p q := rfl

/-- A layer's output clamped at zero from below. -/
def clamped (agg : Nodes) (cnt : Fin 100000 → EReal) (x : Nodes) (Wl Wr : Weights) (b : Bias) : Nodes :=
  fun i => max (layer agg cnt x Wl Wr b i) (Ideal.ofBits .f32 0x00000000#32)

/-- The first layer's clamped output. -/
def hidden (x : Nodes) (e : Edges) (W1l W1r : Weights) (b1 : Bias) : Nodes :=
  clamped (aggOf e x) (fun p => cntOf e (ix1 p)) x W1l W1r b1

/-- The network: the second layer on the clamped output of the first, over the same edge table. -/
def net (x : Nodes) (e : Edges) (W1l W1r : Weights) (b1 : Bias) (W2l W2r : Weights) (b2 : Bias) : Nodes :=
  layer (aggOf e (hidden x e W1l W1r b1)) (fun p => cntOf e (ix1 p)) (hidden x e W1l W1r b1) W2l W2r b2

end Cert.Sage

end
-- ==== Proof.KernelHost.lean ====
/-
  What the kernel program's host operations put in front of each of its two regions, and the run with the result
  array named.

  The program runs a stretch of host operations, a first region, a second stretch, a second region.  The first
  stretch cuts the edge table into its source and destination words, counts for every node the edges that end in it,
  and sums for every node the argument feature rows named by the sources of those edges; the first region reads that
  sum, the count, the argument features and the first layer's weights and bias.  The second stretch forms the same
  sum over the first region's output, with the same words; the second region reads it, the same count, the first
  region's output and the second layer's weights and bias.

  Each statement below reads one window's array at a region's entry as a function of the launch memory (or, for the
  second region, of the first region's output): a stretch of host operations is a fold of the operations' results over
  the buffer contents, so a buffer the stretch writes holds its operation's function of the operands' contents and a
  buffer it does not write holds what it held; a region leaves an input array as entered, an output array at what the
  region's write-backs make of it, and every buffer that is none of its arrays untouched.
-/
import proofs.«176702_j27633819583002_1_alg».proof.Proof.Gen.KernelIdeal.Frame
import proofs.«176702_j27633819583002_1_alg».proof.Proof.Spec
import Idealize.ShloMosaic.Lib.StableHlo.Run
import Idealize.ShloMosaic.Lib.Pipeline.Value
import Idealize.ShloMosaic.Lib.ValueIdx

noncomputable section

namespace Cert.Sage.Host

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What stands in front of the first region -/

/-- Each edge's source word, as the host computes it before the first region: row 0 of the edge table. -/
theorem W1_src (c : Dev nD) : (W1 m ρ c (Proc.devRef .tc main_v1) : Cert.Sage.EdgeWords)
    = Cert.Sage.srcRow (m ((c : Thread nD τ).loc main_arg1)) := by
  unfold Cert.Sage.srcRow
  show StableHlo.after hostOps0 (W0 m ρ c) (Proc.devRef .tc main_v1) = _
  after_results
  rfl

/-- Each edge's destination word, as the host computes it before the first region: row 1 of the edge table. -/
theorem W1_dst (c : Dev nD) : (W1 m ρ c (Proc.devRef .tc main_v3) : Cert.Sage.EdgeWords)
    = Cert.Sage.dstRow (m ((c : Thread nD τ).loc main_arg1)) := by
  unfold Cert.Sage.dstRow
  show StableHlo.after hostOps0 (W0 m ρ c) (Proc.devRef .tc main_v3) = _
  after_results
  rfl

set_option maxHeartbeats 4000000 in
/-- The first region's aggregate window holds the incoming rows of the argument features summed per node. -/
theorem entry0_agg (c : Dev nD) : (V1 m ρ c main_v18 : Cert.Sage.Nodes)
    = Cert.Sage.aggOf (m ((c : Thread nD τ).loc main_arg1)) (m ((c : Thread nD τ).loc main_arg0)) := by
  unfold Cert.Sage.aggOf Cert.Sage.aggRows Cert.Sage.srcRow Cert.Sage.dstRow
  show StableHlo.after hostOps0 (W0 m ρ c) (Proc.devRef .tc main_v18) = _
  after_results
  rfl

set_option maxHeartbeats 4000000 in
/-- The count window before the first region is the in-degree of every node, repeated along a unit axis. -/
theorem V1_cnt (c : Dev nD) : (V1 m ρ c main_v8 : S100000x1.Idx → EReal)
    = broadcastInDim S100000x1 ![0] Facts₀.bcast_S100000_S100000x1_0 (Cert.Sage.cntOf (m ((c : Thread nD τ).loc main_arg1))) := by
  unfold Cert.Sage.cntOf Cert.Sage.cntRows Cert.Sage.dstRow
  show StableHlo.after hostOps0 (W0 m ρ c) (Proc.devRef .tc main_v8) = _
  after_results
  rfl

/-- Reading the unit axis away: the count window at (p, 0) is the in-degree of node p. -/
theorem bcast_cnt_apply (x : Cert.Sage.Counts) (p : Fin 100000) :
    broadcastInDim S100000x1 ![0] Facts₀.bcast_S100000_S100000x1_0 x (ix2 p 0) = x (ix1 p) :=
  broadcastInDim_apply _ _ x (ix2 p 0) (ix1 p) (fun a => by
    match a with
    | ⟨0, _⟩ => rfl)

theorem entry0_cnt (c : Dev nD) (p : Fin 100000) : (V1 m ρ c main_v8 : S100000x1.Idx → EReal) (ix2 p 0)
    = Cert.Sage.cntOf (m ((c : Thread nD τ).loc main_arg1)) (ix1 p) := by
  rw [V1_cnt m ρ c]
  exact bcast_cnt_apply _ p

/-- No host operation before the first region writes an argument: its windows on the arguments hold them as launched. -/
theorem entry0_x (c : Dev nD) : (V1 m ρ c main_arg0 : Cert.Sage.Nodes) = m ((c : Thread nD τ).loc main_arg0) := by
  show StableHlo.after hostOps0 (W0 m ρ c) (Proc.devRef .tc main_arg0) = _
  after_results

theorem entry0_wl (c : Dev nD) : (V1 m ρ c main_arg2 : Cert.Sage.Weights) = m ((c : Thread nD τ).loc main_arg2) := by
  show StableHlo.after hostOps0 (W0 m ρ c) (Proc.devRef .tc main_arg2) = _
  after_results

theorem entry0_wr (c : Dev nD) : (V1 m ρ c main_arg3 : Cert.Sage.Weights) = m ((c : Thread nD τ).loc main_arg3) := by
  show StableHlo.after hostOps0 (W0 m ρ c) (Proc.devRef .tc main_arg3) = _
  after_results

theorem entry0_b (c : Dev nD) : (V1 m ρ c main_arg4 : Cert.Sage.Bias) = m ((c : Thread nD τ).loc main_arg4) := by
  show StableHlo.after hostOps0 (W0 m ρ c) (Proc.devRef .tc main_arg4) = _
  after_results

/-! ## What stands in front of the second region -/

/-- The source words are no array of the first region: they stand after it as before it. -/
theorem W2_src (c : Dev nD) : (W2 m ρ c (Proc.devRef .tc main_v1) : Cert.Sage.EdgeWords)
    = Cert.Sage.srcRow (m ((c : Thread nD τ).loc main_arg1)) :=
  (W2_of_ne m ρ c main_v1 (by decide)).trans (W1_src m ρ c)

/-- The destination words are no array of the first region: they stand after it as before it. -/
theorem W2_dst (c : Dev nD) : (W2 m ρ c (Proc.devRef .tc main_v3) : Cert.Sage.EdgeWords)
    = Cert.Sage.dstRow (m ((c : Thread nD τ).loc main_arg1)) :=
  (W2_of_ne m ρ c main_v3 (by decide)).trans (W1_dst m ρ c)

/-- No host operation between the regions writes the first region's output. -/
theorem V3_h (c : Dev nD) : V3 m ρ c main_v19 = W2 m ρ c (Proc.devRef .tc main_v19) := by
  show StableHlo.after hostOps1 (W2 m ρ c) (Proc.devRef .tc main_v19) = _
  after_results

/-- The second region's feature window holds what the first region leaves in its output array. -/
theorem entry1_h (c : Dev nD) : (V3 m ρ c main_v19 : Cert.Sage.Nodes) = (dat0 (V1 m ρ) c).arrAt 6 cfg0.N :=
  (V3_h m ρ c).trans (W2_arr m ρ c 6)

set_option maxHeartbeats 4000000 in
/-- The second region's aggregate window, over the words and the features as they stand after the first region. -/
theorem V3_agg_raw (c : Dev nD) : (V3 m ρ c main_v29 : Cert.Sage.Nodes)
    = Cert.Sage.aggRows (W2 m ρ c (Proc.devRef .tc main_v1)) (W2 m ρ c (Proc.devRef .tc main_v3))
        (W2 m ρ c (Proc.devRef .tc main_v19)) := by
  unfold Cert.Sage.aggRows
  show StableHlo.after hostOps1 (W2 m ρ c) (Proc.devRef .tc main_v29) = _
  after_results
  all_goals rfl

/-- The second region's aggregate window holds the incoming rows of the first region's output summed per node. -/
theorem entry1_agg (c : Dev nD) : (V3 m ρ c main_v29 : Cert.Sage.Nodes)
    = Cert.Sage.aggOf (m ((c : Thread nD τ).loc main_arg1)) (V3 m ρ c main_v19) :=
  calc (V3 m ρ c main_v29 : Cert.Sage.Nodes)
    _ = Cert.Sage.aggRows (W2 m ρ c (Proc.devRef .tc main_v1)) (W2 m ρ c (Proc.devRef .tc main_v3))
          (W2 m ρ c (Proc.devRef .tc main_v19)) := V3_agg_raw m ρ c
    _ = Cert.Sage.aggRows (Cert.Sage.srcRow (m ((c : Thread nD τ).loc main_arg1)))
          (Cert.Sage.dstRow (m ((c : Thread nD τ).loc main_arg1))) (V3 m ρ c main_v19) := by
        rw [W2_src m ρ c, W2_dst m ρ c, V3_h m ρ c]
    _ = Cert.Sage.aggOf (m ((c : Thread nD τ).loc main_arg1)) (V3 m ρ c main_v19) := rfl

/-- The count window is an input of the first region and no host operation between the regions writes it. -/
theorem V3_cnt (c : Dev nD) : V3 m ρ c main_v8 = V1 m ρ c main_v8 :=
  calc V3 m ρ c main_v8
    _ = W2 m ρ c (Proc.devRef .tc main_v8) := by
        show StableHlo.after hostOps1 (W2 m ρ c) (Proc.devRef .tc main_v8) = _
        after_results
    _ = W1 m ρ c (Proc.devRef .tc main_v8) :=
        (W2_arr m ρ c 1).trans (((dat0 (V1 m ρ) c).arrAt_in 1 rfl _).trans (A_eq0 (V1 m ρ) c 1))

theorem entry1_cnt (c : Dev nD) (p : Fin 100000) : (V3 m ρ c main_v8 : S100000x1.Idx → EReal) (ix2 p 0)
    = Cert.Sage.cntOf (m ((c : Thread nD τ).loc main_arg1)) (ix1 p) := by
  rw [V3_cnt m ρ c]
  exact entry0_cnt m ρ c p

/-- The second layer's weights and bias are no array of the first region and no host operation writes them. -/
theorem entry1_wl (c : Dev nD) : (V3 m ρ c main_arg5 : Cert.Sage.Weights) = m ((c : Thread nD τ).loc main_arg5) :=
  calc (V3 m ρ c main_arg5 : Cert.Sage.Weights)
    _ = W2 m ρ c (Proc.devRef .tc main_arg5) := by
        show StableHlo.after hostOps1 (W2 m ρ c) (Proc.devRef .tc main_arg5) = _
        after_results
    _ = W1 m ρ c (Proc.devRef .tc main_arg5) := W2_of_ne m ρ c main_arg5 (by decide)
    _ = m ((c : Thread nD τ).loc main_arg5) := by
        show StableHlo.after hostOps0 (W0 m ρ c) (Proc.devRef .tc main_arg5) = _
        after_results

theorem entry1_wr (c : Dev nD) : (V3 m ρ c main_arg6 : Cert.Sage.Weights) = m ((c : Thread nD τ).loc main_arg6) :=
  calc (V3 m ρ c main_arg6 : Cert.Sage.Weights)
    _ = W2 m ρ c (Proc.devRef .tc main_arg6) := by
        show StableHlo.after hostOps1 (W2 m ρ c) (Proc.devRef .tc main_arg6) = _
        after_results
    _ = W1 m ρ c (Proc.devRef .tc main_arg6) := W2_of_ne m ρ c main_arg6 (by decide)
    _ = m ((c : Thread nD τ).loc main_arg6) := by
        show StableHlo.after hostOps0 (W0 m ρ c) (Proc.devRef .tc main_arg6) = _
        after_results

theorem entry1_b (c : Dev nD) : (V3 m ρ c main_arg7 : Cert.Sage.Bias) = m ((c : Thread nD τ).loc main_arg7) :=
  calc (V3 m ρ c main_arg7 : Cert.Sage.Bias)
    _ = W2 m ρ c (Proc.devRef .tc main_arg7) := by
        show StableHlo.after hostOps1 (W2 m ρ c) (Proc.devRef .tc main_arg7) = _
        after_results
    _ = W1 m ρ c (Proc.devRef .tc main_arg7) := W2_of_ne m ρ c main_arg7 (by decide)
    _ = m ((c : Thread nD τ).loc main_arg7) := by
        show StableHlo.after hostOps0 (W0 m ρ c) (Proc.devRef .tc main_arg7) = _
        after_results

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxRecDepth 16384

/-! ## The run, with the result array named -/

-- the launch theorem's implicit arguments are found by unifying its conclusion with this one, which takes unfolding
-- plain definitions in a metavariable's type
set_option backward.isDefEq.respectTransparency.types false in
/-- From any memory with zero counters every weakly fair execution of the kernel program terminates without a fault,
    and in every final state the result buffer holds what the second region leaves in its output array and each
    argument is as launched: the run over the program's four segments, the last thread state read against the final
    state, the result buffer being the second region's output array and no segment writing an argument. -/
theorem run_out : θ_run defs (onTc (τ := τ) (main (F := Ideal))) ⟨m, fun _ => 0, ρ⟩ (fun r => ∀ c : Dev nD,
      r.2.mem ((c.tc : Thread nD τ).loc main_v30) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v30 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Run

end Cert.Sage.Host

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibTranspose.lean ====
/-
  A two-axis array with its axes exchanged, read at an entry.

  Exchanging the two axes of an [a, b] array gives a [b, a] array whose entry (j, i) is the entry (i, j) of the
  original, whatever the extents and the element type.
-/
import Idealize.ShloMosaic.Lib.Pipeline.Value
import Idealize.ShloMosaic.Lib.ValueIdx

noncomputable section

namespace Cert.Transpose

open Idealize.ShloMosaic Idealize.ShloMosaic.ValueIdx

/-- A transposed two-axis array read at (j, i) is the array at (i, j). -/
theorem swapped_apply {α : Type} {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun ax => by
    match ax with
    | ⟨0, _⟩ => rfl
    | ⟨1, _⟩ => rfl

end Cert.Transpose

end
-- ==== Proof.LibRecipScale.lean ====
/-
  Scaling by a reciprocal taken first, on the extended reals.

  The quotient `Ideal.div x d` is `x · d⁻¹` whenever `d` is not zero, and so is the product of `x` with the
  quotient `Ideal.div 1 d`: the two agree for EVERY extended real `x` (the infinities included) and every
  divisor that is not zero — nothing about `d` being finite is used.  A maximum with one is such a divisor.
-/
import Idealize.ShloMosaic.PureOps.Ideal

noncomputable section

namespace Cert.RecipScale

open Idealize.ShloMosaic

/-- Multiplying by the reciprocal `1 / d` is dividing by `d`, for a divisor that is not zero. -/
theorem mul_div_one (x d : EReal) (hd : d ≠ 0) : x * Ideal.div 1 d = Ideal.div x d := by
  unfold Ideal.div
  rw [if_neg hd, if_neg hd, one_mul]

/-- A maximum with one is at least one, hence not zero. -/
theorem max_one_ne_zero (s : EReal) : max s 1 ≠ 0 :=
  ne_of_gt (lt_of_lt_of_le zero_lt_one (le_max_right s 1))

end Cert.RecipScale

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.Payload.lean ====
/-
  What one grid point's body stores, read at an entry of the block.

  The body loads a block of 5000 rows: the summed incoming rows `a`, the in-degree column `c`, the rows `x`, the two
  weight matrices and the bias.  It scales row p of `a` by the reciprocal 1 / max (c p) 1, multiplies the scaled rows
  by the transposed first weight matrix and the rows `x` by the transposed second, and adds the two products and the
  bias; the first call also clamps at zero.  A change of float format is the identity on the extended reals; a product
  accumulated onto zero is the plain sum over the contracted axis; entry (k, q) of a transposed matrix is entry (q, k);
  and a product with the reciprocal of a divisor that is not zero is the quotient.  So the stored entry (p, q) is the
  layer's formula over the block's rows (`blockAt`).
-/
import proofs.«176702_j27633819583002_1_alg».proof.Proof.Gen.KernelIdeal.Skeleton
import proofs.«176702_j27633819583002_1_alg».proof.Proof.LibPlainMatmul
import proofs.«176702_j27633819583002_1_alg».proof.Proof.LibTranspose
import proofs.«176702_j27633819583002_1_alg».proof.Proof.LibRecipScale
import proofs.«176702_j27633819583002_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Body

open Idealize.ShloMosaic Idealize.ShloMosaic.ValueIdx Cert.KernelIdeal Cert.KernelIdeal.Gen

/-- The word of the float one denotes the number one. -/
theorem one_word : Ideal.ofBits .f32 0x3F800000#32 = 1 := by
  simp [Ideal.ofBits, Ideal.ieee, -EReal.coe_mul]; norm_num

/-- The layer's formula over one block of 5000 rows, at the block's entry (p, q). -/
def blockAt (c : Vec Ideal S5000x1 .f32) (a x : Vec Ideal S5000x64 .f32) (wl wr : Vec Ideal S64x64 .f32)
    (b : Vec Ideal S64 .f32) (p : Fin 5000) (q : Fin 64) : EReal :=
  ((∑ k : Fin 64, Ideal.div (a (ix2 p k)) (max (c (ix2 p 0)) (Ideal.ofBits .f32 0x3F800000#32)) * wl (ix2 q k))
    + ∑ k : Fin 64, x (ix2 p k) * wr (ix2 q k))
  + b (ix1 q)

/-- A product of a block of rows with a 64 × 64 matrix, accumulated onto zero: the sum over the shared axis. -/
theorem product_at (L : FVec Ideal S5000x64 .bf16) (R : FVec Ideal S64x64 .bf16) (p : Fin 5000) (q : Fin 64) :
    matmul dot_S5000x64_S64x64_S5000x64_1_0_0_1_n_n none L R (constant S5000x64 .f32 0x00000000#32) (ix2 p q)
      = ∑ k : Fin 64, L (ix2 p k) * R (ix2 k q) :=
  Cert.PlainMatmul.zero_acc_apply dot_S5000x64_S64x64_S5000x64_1_0_0_1_n_n_wf none L R p q

/-- Entry (k, q) of a transposed weight matrix is entry (q, k). -/
theorem transposed_at (w : FVec Ideal S64x64 .bf16) (k q : Fin 64) :
    transpose S64x64 [1, 0] w transposes_S64x64_p1_0_S64x64 (ix2 k q) = w (ix2 q k) :=
  Cert.Transpose.swapped_apply w transposes_S64x64_p1_0_S64x64 q k

/-- A column of one value per row, repeated along the 64 columns, reads at (p, k) the value of row p. -/
theorem column_at (v : FVec Ideal S5000x1 .f32) (p : Fin 5000) (k : Fin 64) :
    broadcastTo S5000x64 v broadcasts_S5000x1_S5000x64 (ix2 p k) = v (ix2 p 0) :=
  broadcastTo_apply v broadcasts_S5000x1_S5000x64 (ix2 p k) (ix2 p (0 : Fin 1)) fun ax => by
    match ax with
    | ⟨0, _⟩ => rfl
    | ⟨1, _⟩ => rfl

/-- The bias, kept as a row and repeated along the 5000 rows, reads at (p, q) its entry q. -/
theorem bias_at (b : Vec Ideal S64 .f32) (p : Fin 5000) (q : Fin 64) :
    broadcastTo S5000x64 (shapeCast S1x64 b shapeCasts_S64_S1x64) broadcasts_S1x64_S5000x64 (ix2 p q) = b (ix1 q) :=
  Cert.RowOps.row_repeated_apply b shapeCasts_S64_S1x64 broadcasts_S1x64_S5000x64 p q

/-- Scaling by the reciprocal of the clipped in-degree is dividing by it. -/
theorem scaled (y s : EReal) :
    y * Ideal.div (Ideal.ofBits .f32 0x3F800000#32) (max s (Ideal.ofBits .f32 0x3F800000#32))
      = Ideal.div y (max s (Ideal.ofBits .f32 0x3F800000#32)) := by
  rw [one_word]
  exact Cert.RecipScale.mul_div_one y _ (Cert.RecipScale.max_one_ne_zero s)

/-- The first call's stored entry: the layer's formula over the block, clamped at zero from below. -/
theorem pay0_at (c : Vec Ideal S5000x1 .f32) (a x : Vec Ideal S5000x64 .f32) (wl wr : Vec Ideal S64x64 .f32)
    (b : Vec Ideal S64 .f32) (p : Fin 5000) (q : Fin 64) :
    k0_pay1 c a x wl wr b (ix2 p q) = max (blockAt c a x wl wr b p q) (Ideal.ofBits .f32 0x00000000#32) := by
  unfold k0_pay1 blockAt
  simp only [maximumf_apply, addf_apply, broadcast_apply, product_at, transposed_at, truncf_apply, mulf_apply,
    shapeCast_self, column_at, divf_apply, bias_at]
  simp only [Ideal.ofBits_def, scaled]
  rw [bias_at]
  refine congrArg (fun z => max (z + b (ix1 q)) (Ideal.ofBits .f32 0x00000000#32)) ?_
  refine congrArg₂ (· + ·) (Finset.sum_congr rfl fun k _ => ?_) (Finset.sum_congr rfl fun k _ => ?_)
  · rw [transposed_at, truncf_apply]
  · rw [transposed_at, truncf_apply]

/-- The second call's stored entry: the layer's formula over the block. -/
theorem pay1_at (c : Vec Ideal S5000x1 .f32) (a x : Vec Ideal S5000x64 .f32) (wl wr : Vec Ideal S64x64 .f32)
    (b : Vec Ideal S64 .f32) (p : Fin 5000) (q : Fin 64) :
    k1_pay1 c a x wl wr b (ix2 p q) = blockAt c a x wl wr b p q := by
  unfold k1_pay1 blockAt
  simp only [maximumf_apply, addf_apply, broadcast_apply, product_at, transposed_at, truncf_apply, mulf_apply,
    shapeCast_self, column_at, divf_apply, bias_at]
  simp only [Ideal.ofBits_def, scaled]
  rw [bias_at]
  refine congrArg (fun z => z + b (ix1 q)) ?_
  refine congrArg₂ (· + ·) (Finset.sum_congr rfl fun k _ => ?_) (Finset.sum_congr rfl fun k _ => ?_)
  · rw [transposed_at, truncf_apply]
  · rw [transposed_at, truncf_apply]

end Cert.Sage.Body

end
-- ==== Proof.Region0.lean ====
/-
  The first call: what its output array holds afterwards, as a function of the arrays it finds.

  The call runs over 20 grid points.  At point t every row window (the summed incoming rows, the in-degree column, the
  node rows, and the output) holds rows 5000 t … 5000 t + 4999 of its array, and the two weight matrices and the bias are
  held whole.  So what point t writes back is rows 5000 t … of ONE whole-array function of the arrays the call finds —
  the layer's formula, clamped at zero — and the 20 blocks tile the 100000 rows: the output array ends holding that function.
-/
import proofs.«176702_j27633819583002_1_alg».proof.Proof.Gen.KernelIdeal.Frame
import proofs.«176702_j27633819583002_1_alg».proof.Proof.Payload
import proofs.«176702_j27633819583002_1_alg».proof.Proof.Spec
import Idealize.ShloMosaic.Lib.Pipeline.Value
import Idealize.ShloMosaic.Lib.ValueIdx

noncomputable section

open scoped BigOperators

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: a row window's block index is (t, 0), a weight matrix's
    (0, 0), the bias' 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 20 := by
  have h := t.isLt
  have hN : cfg0.N = 20 := N_0
  omega

/-! ## Each window's block at a point, read off its array -/

/-- The summed incoming rows: entry (p, k) of the block at point t is entry (5000 t + p, k) of the array. -/
theorem read_agg (c : Dev nD) (t : Fin cfg0.N) (y : S5000x64.Idx) (i : S100000x64.Idx)
    (h0 : (i 0).val = 5000 * t.val + (y 0).val) (h1 : (i 1).val = (y 1).val) :
    (iblk0 V c 0 t : Vec Ideal S5000x64 .f32) y = (V c main_v18 : S100000x64.Idx → EReal) i := by
  obtain ⟨e0, e1, -⟩ := idx_facts t
  unfold iblk0
  rw [View.read_apply]
  show V c main_v18 _ = V c main_v18 _
  refine congrArg (V c main_v18) ?_
  funext a
  apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The in-degree column: entry (p, 0) of the block at point t is entry (5000 t + p, 0) of the array. -/
theorem read_cnt (c : Dev nD) (t : Fin cfg0.N) (y : S5000x1.Idx) (i : S100000x1.Idx)
    (h0 : (i 0).val = 5000 * t.val + (y 0).val) (h1 : (i 1).val = (y 1).val) :
    (iblk0 V c 1 t : Vec Ideal S5000x1 .f32) y = (V c main_v8 : S100000x1.Idx → EReal) i := by
  obtain ⟨-, -, e0, e1, -⟩ := idx_facts t
  unfold iblk0
  rw [View.read_apply]
  show V c main_v8 _ = V c main_v8 _
  refine congrArg (V c main_v8) ?_
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- The node rows: entry (p, k) of the block at point t is entry (5000 t + p, k) of the array. -/
theorem read_x (c : Dev nD) (t : Fin cfg0.N) (y : S5000x64.Idx) (i : S100000x64.Idx)
    (h0 : (i 0).val = 5000 * t.val + (y 0).val) (h1 : (i 1).val = (y 1).val) :
    (iblk0 V c 2 t : Vec Ideal S5000x64 .f32) y = (V c main_arg0 : S100000x64.Idx → EReal) i := by
  obtain ⟨-, -, -, -, e0, e1, -⟩ := idx_facts t
  unfold iblk0
  rw [View.read_apply]
  show V c main_arg0 _ = V c main_arg0 _
  refine congrArg (V c main_arg0) ?_
  funext a
  apply Fin.ext
  match a with
  | ⟨0, _⟩ => show win0_2.index t 0 * 5000 + 1 * (y 0).val = (i 0).val; rw [e0, h0]; omega
  | ⟨1, _⟩ => show win0_2.index t 1 * 64 + 1 * (y 1).val = (i 1).val; rw [e1, h1]; omega

/-- The first weight matrix is held whole. -/
theorem read_wl (c : Dev nD) (t : Fin cfg0.N) (y : S64x64.Idx) :
    (iblk0 V c 3 t : Vec Ideal S64x64 .f32) y = (V c main_arg2 : S64x64.Idx → EReal) y := by
  obtain ⟨-, -, -, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- The second weight matrix is held whole. -/
theorem read_wr (c : Dev nD) (t : Fin cfg0.N) (y : S64x64.Idx) :
    (iblk0 V c 4 t : Vec Ideal S64x64 .f32) y = (V c main_arg3 : S64x64.Idx → EReal) y := by
  obtain ⟨-, -, -, -, -, -, -, -, e0, e1, -⟩ := idx_facts t
  unfold iblk0
  rw [View.read_apply]
  show V c main_arg3 _ = V c main_arg3 _
  refine congrArg (V c main_arg3) ?_
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

/-- The bias is held whole. -/
theorem read_b (c : Dev nD) (t : Fin cfg0.N) (y : S64.Idx) :
    (iblk0 V c 5 t : Vec Ideal S64 .f32) y = (V c main_arg4 : S64.Idx → EReal) y := by
  obtain ⟨-, -, -, -, -, -, -, -, -, -, e0, -⟩ := idx_facts t
  unfold iblk0
  rw [View.read_apply]
  show V c main_arg4 _ = V c main_arg4 _
  refine congrArg (V c main_arg4) ?_
  funext a
  apply Fin.ext
  match a with
  | ⟨0, _⟩ => show win0_5.index t 0 * 64 + 1 * (y 0).val = (y 0).val; rw [e0]; omega

/-! ## What a point writes back -/

/-- The output array as one function of the arrays the call finds. -/
abbrev result (c : Dev nD) : Cert.Sage.Nodes :=
  Cert.Sage.clamped (V c main_v18) (fun p => (V c main_v8 : S100000x1.Idx → EReal) (ix2 p 0)) (V c main_arg0) (V c main_arg2) (V c main_arg3) (V c main_arg4)

/-- The block's formula over the blocks of point t is the layer's formula at row 5000 t + p of the arrays. -/
theorem block_at (c : Dev nD) (t : Fin cfg0.N) (p : Fin 5000) (q : Fin 64) (P : Fin 100000) (hP : P.val = 5000 * t.val + p.val) :
    Cert.Sage.Body.blockAt (iblk0 V c 1 t) (iblk0 V c 0 t) (iblk0 V c 2 t) (iblk0 V c 3 t) (iblk0 V c 4 t) (iblk0 V c 5 t) p q
      = Cert.Sage.layerAt (V c main_v18) (fun p => (V c main_v8 : S100000x1.Idx → EReal) (ix2 p 0)) (V c main_arg0) (V c main_arg2) (V c main_arg3) (V c main_arg4) P q := by
  have ra : ∀ k : Fin 64, (iblk0 V c 0 t : Vec Ideal S5000x64 .f32) (ix2 p k) = (V c main_v18 : S100000x64.Idx → EReal) (ix2 P k) :=
    fun k => read_agg V c t (ix2 p k) (ix2 P k) hP rfl
  have rx : ∀ k : Fin 64, (iblk0 V c 2 t : Vec Ideal S5000x64 .f32) (ix2 p k) = (V c main_arg0 : S100000x64.Idx → EReal) (ix2 P k) :=
    fun k => read_x V c t (ix2 p k) (ix2 P k) hP rfl
  have rc : (iblk0 V c 1 t : Vec Ideal S5000x1 .f32) (ix2 p 0) = (V c main_v8 : S100000x1.Idx → EReal) (ix2 P 0) :=
    read_cnt V c t (ix2 p 0) (ix2 P 0) hP rfl
  unfold Cert.Sage.Body.blockAt Cert.Sage.layerAt
  rw [rc, read_b V c t (ix1 q)]
  refine congrArg (fun z => z + (V c main_arg4 : S64.Idx → EReal) (ix1 q)) ?_
  refine congrArg₂ (· + ·) (Finset.sum_congr rfl fun k _ => ?_) (Finset.sum_congr rfl fun k _ => ?_)
  · rw [ra k, read_wl V c t (ix2 q k)]
  · rw [rx k, read_wr V c t (ix2 q k)]

/-- WHAT POINT t WRITES BACK is block t of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S5000x1) hz2,
    View.ld_unit_zero (S := S64x64) hz2, View.ld_unit_zero (S := S64) hz1]
  obtain ⟨-, -, -, -, -, -, -, -, -, -, -, e0, e1⟩ := idx_facts t
  have ht := point_lt t
  have key : ∀ y : S5000x64.Idx,
      (k0_pay1 (iblk0 V c 1 t) (iblk0 V c 0 t) (iblk0 V c 2 t) (iblk0 V c 3 t) (iblk0 V c 4 t) (iblk0 V c 5 t) : Vec Ideal S5000x64 .f32) y
        = result V c (((cfg0.win 6).blk t).view.emb y) := by
    intro y
    obtain ⟨p, q, rfl⟩ : ∃ (p : Fin 5000) (q : Fin 64), y = ix2 p q := ⟨y 0, y 1, eq_ix2 y⟩
    have hemb : ((cfg0.win 6).blk t).view.emb (ix2 p q) = ix2 (⟨5000 * t.val + p.val, by omega⟩ : Fin 100000) q := by
      funext a
      apply Fin.ext
      match a with
      | ⟨0, _⟩ => show win0_6.index t 0 * 5000 + 1 * p.val = 5000 * t.val + p.val; rw [e0]; omega
      | ⟨1, _⟩ => show win0_6.index t 1 * 64 + 1 * q.val = q.val; rw [e1]; omega
    rw [hemb]
    refine (Cert.Sage.Body.pay0_at (iblk0 V c 1 t) (iblk0 V c 0 t) (iblk0 V c 2 t) (iblk0 V c 3 t) (iblk0 V c 4 t) (iblk0 V c 5 t) p q).trans ?_
    rw [block_at V c t p q ⟨5000 * t.val + p.val, by omega⟩ rfl]
    rfl
  funext j
  exact key j

/-! ## The blocks tile the array -/

/-- An index of the output array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v19).slice (win0_6.rect t)).set ↔ _
  rw [View.set_slice_whole, Rect.mem_set_unit]
  exact Iff.rfl

/-- Row r of the output lies in the block of point r / 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_6 _, ?_⟩
  rw [mem_blk]
  obtain ⟨-, -, -, -, -, -, -, -, -, -, -, e0, e1⟩ := idx_facts ⟨(i 0).val / 5000, hlt⟩
  intro a
  match a with
  | ⟨0, _⟩ =>
    show win0_6.index ⟨(i 0).val / 5000, hlt⟩ 0 * 5000 ≤ (i 0).val ∧ (i 0).val < win0_6.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_6.index ⟨(i 0).val / 5000, hlt⟩ 1 * 64 ≤ (i 1).val ∧ (i 1).val < win0_6.index ⟨(i 0).val / 5000, hlt⟩ 1 * 64 + 64
    rw [e1]
    omega

/-- THE OUTPUT ARRAY after the call: `result` of the arrays the call finds. -/
theorem final (c : Dev nD) : (dat0 V c).arrAt 6 cfg0.N = result V c :=
  (dat0 V c).arrAt_eq_of_cover 6 (result V c) (fun t _ => flushed_eq V c t) cover

end Cert.Sage.Region0

end
-- ==== Proof.Region1.lean ====
/-
  The second call: what its output array holds afterwards, as a function of the arrays it finds.

  The call runs over 20 grid points.  At point t every row window (the summed incoming rows, the in-degree column, the
  node rows, and the output) holds rows 5000 t … 5000 t + 4999 of its array, and the two weight matrices and the bias are
  held whole.  So what point t writes back is rows 5000 t … of ONE whole-array function of the arrays the call finds —
  the layer's formula — and the 20 blocks tile the 100000 rows: the output array ends holding that function.
-/
import proofs.«176702_j27633819583002_1_alg».proof.Proof.Gen.KernelIdeal.Frame
import proofs.«176702_j27633819583002_1_alg».proof.Proof.Payload
import proofs.«176702_j27633819583002_1_alg».proof.Proof.Spec
import Idealize.ShloMosaic.Lib.Pipeline.Value
import Idealize.ShloMosaic.Lib.ValueIdx

noncomputable section

open scoped BigOperators

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: a row window's block index is (t, 0), a weight matrix's
    (0, 0), the bias' 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 20 := by
  have h := t.isLt
  have hN : cfg1.N = 20 := N_1
  omega

/-! ## Each window's block at a point, read off its array -/

/-- The summed incoming rows: entry (p, k) of the block at point t is entry (5000 t + p, k) of the array. -/
theorem read_agg (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v29 : S100000x64.Idx → EReal) i := by
  obtain ⟨e0, e1, -⟩ := idx_facts t
  unfold iblk1
  rw [View.read_apply]
  show V c main_v29 _ = V c main_v29 _
  refine congrArg (V c main_v29) ?_
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The in-degree column: entry (p, 0) of the block at point t is entry (5000 t + p, 0) of the array. -/
theorem read_cnt (c : Dev nD) (t : Fin cfg1.N) (y : S5000x1.Idx) (i : S100000x1.Idx)
    (h0 : (i 0).val = 5000 * t.val + (y 0).val) (h1 : (i 1).val = (y 1).val) :
    (iblk1 V c 1 t : Vec Ideal S5000x1 .f32) y = (V c main_v8 : S100000x1.Idx → EReal) i := by
  obtain ⟨-, -, e0, e1, -⟩ := idx_facts t
  unfold iblk1
  rw [View.read_apply]
  show V c main_v8 _ = V c main_v8 _
  refine congrArg (V c main_v8) ?_
  funext a
  apply Fin.ext
  match a with
  | ⟨0, _⟩ => show win1_1.index t 0 * 5000 + 1 * (y 0).val = (i 0).val; rw [e0, h0]; omega
  | ⟨1, _⟩ => show win1_1.index t 1 * 1 + 1 * (y 1).val = (i 1).val; rw [e1, h1]; omega

/-- The node rows: entry (p, k) of the block at point t is entry (5000 t + p, k) of the array. -/
theorem read_x (c : Dev nD) (t : Fin cfg1.N) (y : S5000x64.Idx) (i : S100000x64.Idx)
    (h0 : (i 0).val = 5000 * t.val + (y 0).val) (h1 : (i 1).val = (y 1).val) :
    (iblk1 V c 2 t : Vec Ideal S5000x64 .f32) y = (V c main_v19 : S100000x64.Idx → EReal) i := by
  obtain ⟨-, -, -, -, e0, e1, -⟩ := idx_facts t
  unfold iblk1
  rw [View.read_apply]
  show V c main_v19 _ = V c main_v19 _
  refine congrArg (V c main_v19) ?_
  funext a
  apply Fin.ext
  match a with
  | ⟨0, _⟩ => show win1_2.index t 0 * 5000 + 1 * (y 0).val = (i 0).val; rw [e0, h0]; omega
  | ⟨1, _⟩ => show win1_2.index t 1 * 64 + 1 * (y 1).val = (i 1).val; rw [e1, h1]; omega

/-- The first weight matrix is held whole. -/
theorem read_wl (c : Dev nD) (t : Fin cfg1.N) (y : S64x64.Idx) :
    (iblk1 V c 3 t : Vec Ideal S64x64 .f32) y = (V c main_arg5 : S64x64.Idx → EReal) y := by
  obtain ⟨-, -, -, -, -, -, e0, e1, -⟩ := idx_facts t
  unfold iblk1
  rw [View.read_apply]
  show V c main_arg5 _ = V c main_arg5 _
  refine congrArg (V c main_arg5) ?_
  funext a
  apply Fin.ext
  match a with
  | ⟨0, _⟩ => show win1_3.index t 0 * 64 + 1 * (y 0).val = (y 0).val; rw [e0]; omega
  | ⟨1, _⟩ => show win1_3.index t 1 * 64 + 1 * (y 1).val = (y 1).val; rw [e1]; omega

/-- The second weight matrix is held whole. -/
theorem read_wr (c : Dev nD) (t : Fin cfg1.N) (y : S64x64.Idx) :
    (iblk1 V c 4 t : Vec Ideal S64x64 .f32) y = (V c main_arg6 : S64x64.Idx → EReal) y := by
  obtain ⟨-, -, -, -, -, -, -, -, e0, e1, -⟩ := idx_facts t
  unfold iblk1
  rw [View.read_apply]
  show V c main_arg6 _ = V c main_arg6 _
  refine congrArg (V c main_arg6) ?_
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- The bias is held whole. -/
theorem read_b (c : Dev nD) (t : Fin cfg1.N) (y : S64.Idx) :
    (iblk1 V c 5 t : Vec Ideal S64 .f32) y = (V c main_arg7 : S64.Idx → EReal) y := by
  obtain ⟨-, -, -, -, -, -, -, -, -, -, e0, -⟩ := idx_facts t
  unfold iblk1
  rw [View.read_apply]
  show V c main_arg7 _ = V c main_arg7 _
  refine congrArg (V c main_arg7) ?_
  funext a
  apply Fin.ext
  match a with
  | ⟨0, _⟩ => show win1_5.index t 0 * 64 + 1 * (y 0).val = (y 0).val; rw [e0]; omega

/-! ## What a point writes back -/

/-- The output array as one function of the arrays the call finds. -/
abbrev result (c : Dev nD) : Cert.Sage.Nodes :=
  Cert.Sage.layer (V c main_v29) (fun p => (V c main_v8 : S100000x1.Idx → EReal) (ix2 p 0)) (V c main_v19) (V c main_arg5) (V c main_arg6) (V c main_arg7)

/-- The block's formula over the blocks of point t is the layer's formula at row 5000 t + p of the arrays. -/
theorem block_at (c : Dev nD) (t : Fin cfg1.N) (p : Fin 5000) (q : Fin 64) (P : Fin 100000) (hP : P.val = 5000 * t.val + p.val) :
    Cert.Sage.Body.blockAt (iblk1 V c 1 t) (iblk1 V c 0 t) (iblk1 V c 2 t) (iblk1 V c 3 t) (iblk1 V c 4 t) (iblk1 V c 5 t) p q
      = Cert.Sage.layerAt (V c main_v29) (fun p => (V c main_v8 : S100000x1.Idx → EReal) (ix2 p 0)) (V c main_v19) (V c main_arg5) (V c main_arg6) (V c main_arg7) P q := by
  have ra : ∀ k : Fin 64, (iblk1 V c 0 t : Vec Ideal S5000x64 .f32) (ix2 p k) = (V c main_v29 : S100000x64.Idx → EReal) (ix2 P k) :=
    fun k => read_agg V c t (ix2 p k) (ix2 P k) hP rfl
  have rx : ∀ k : Fin 64, (iblk1 V c 2 t : Vec Ideal S5000x64 .f32) (ix2 p k) = (V c main_v19 : S100000x64.Idx → EReal) (ix2 P k) :=
    fun k => read_x V c t (ix2 p k) (ix2 P k) hP rfl
  have rc : (iblk1 V c 1 t : Vec Ideal S5000x1 .f32) (ix2 p 0) = (V c main_v8 : S100000x1.Idx → EReal) (ix2 P 0) :=
    read_cnt V c t (ix2 p 0) (ix2 P 0) hP rfl
  unfold Cert.Sage.Body.blockAt Cert.Sage.layerAt
  rw [rc, read_b V c t (ix1 q)]
  refine congrArg (fun z => z + (V c main_arg7 : S64.Idx → EReal) (ix1 q)) ?_
  refine congrArg₂ (· + ·) (Finset.sum_congr rfl fun k _ => ?_) (Finset.sum_congr rfl fun k _ => ?_)
  · rw [ra k, read_wl V c t (ix2 q k)]
  · rw [rx k, read_wr V c t (ix2 q k)]

/-- WHAT POINT t WRITES BACK is block t of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2,
    View.ld_unit_zero (S := S64x64) hz2, View.ld_unit_zero (S := S64) hz1]
  obtain ⟨-, -, -, -, -, -, -, -, -, -, -, e0, e1⟩ := idx_facts t
  have ht := point_lt t
  have key : ∀ y : S5000x64.Idx,
      (k1_pay1 (iblk1 V c 1 t) (iblk1 V c 0 t) (iblk1 V c 2 t) (iblk1 V c 3 t) (iblk1 V c 4 t) (iblk1 V c 5 t) : Vec Ideal S5000x64 .f32) y
        = result V c (((cfg1.win 6).blk t).view.emb y) := by
    intro y
    obtain ⟨p, q, rfl⟩ : ∃ (p : Fin 5000) (q : Fin 64), y = ix2 p q := ⟨y 0, y 1, eq_ix2 y⟩
    have hemb : ((cfg1.win 6).blk t).view.emb (ix2 p q) = ix2 (⟨5000 * t.val + p.val, by omega⟩ : Fin 100000) q := by
      funext a
      apply Fin.ext
      match a with
      | ⟨0, _⟩ => show win1_6.index t 0 * 5000 + 1 * p.val = 5000 * t.val + p.val; rw [e0]; omega
      | ⟨1, _⟩ => show win1_6.index t 1 * 64 + 1 * q.val = q.val; rw [e1]; omega
    rw [hemb]
    refine (Cert.Sage.Body.pay1_at (iblk1 V c 1 t) (iblk1 V c 0 t) (iblk1 V c 2 t) (iblk1 V c 3 t) (iblk1 V c 4 t) (iblk1 V c 5 t) p q).trans ?_
    rw [block_at V c t p q ⟨5000 * t.val + p.val, by omega⟩ rfl]
    rfl
  funext j
  exact key j

/-! ## The blocks tile the array -/

/-- An index of the output array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v30).slice (win1_6.rect t)).set ↔ _
  rw [View.set_slice_whole, Rect.mem_set_unit]
  exact Iff.rfl

/-- Row r of the output lies in the block of point r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_6 _, ?_⟩
  rw [mem_blk]
  obtain ⟨-, -, -, -, -, -, -, -, -, -, -, e0, e1⟩ := idx_facts ⟨(i 0).val / 5000, hlt⟩
  intro a
  match a with
  | ⟨0, _⟩ =>
    show win1_6.index ⟨(i 0).val / 5000, hlt⟩ 0 * 5000 ≤ (i 0).val ∧ (i 0).val < win1_6.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_6.index ⟨(i 0).val / 5000, hlt⟩ 1 * 64 ≤ (i 1).val ∧ (i 1).val < win1_6.index ⟨(i 0).val / 5000, hlt⟩ 1 * 64 + 64
    rw [e1]
    omega

/-- THE OUTPUT ARRAY after the call: `result` of the arrays the call finds. -/
theorem final (c : Dev nD) : (dat1 V c).arrAt 6 cfg1.N = result V c :=
  (dat1 V c).arrAt_eq_of_cover 6 (result V c) (fun t _ => flushed_eq V c t) cover

end Cert.Sage.Region1

end
-- ==== Proof.KernelNet.lean ====
/-
  The kernel program's result array holds the network of the arguments.

  The first call finds, in front of it, the summed incoming rows and the in-degrees of the input features (the host's
  gather and scatter-add of the edge table) beside the arguments themselves, so its output array ends holding the
  clamped first layer.  The second call finds the summed incoming rows of THAT array, the same in-degrees, that array,
  and the second layer's weights and bias: its output array ends holding the network.
-/
import proofs.«176702_j27633819583002_1_alg».proof.Proof.KernelHost
import proofs.«176702_j27633819583002_1_alg».proof.Proof.Region0
import proofs.«176702_j27633819583002_1_alg».proof.Proof.Region1

noncomputable section

namespace Cert.Sage.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- After the first call its output array holds the clamped first layer of the arguments. -/
theorem hidden_eq (c : Dev nD) :
    (dat0 (V1 m ρ) c).arrAt 6 cfg0.N
      = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Sage.Region0.final (V1 m ρ) c]
  show Cert.Sage.clamped (V1 m ρ c main_v18) (fun p => (V1 m ρ c main_v8 : S100000x1.Idx → EReal) (ix2 p 0)) (V1 m ρ c main_arg0)
      (V1 m ρ c main_arg2) (V1 m ρ c main_arg3) (V1 m ρ c main_arg4) = _
  rw [Cert.Sage.Host.entry0_agg m ρ c, Cert.Sage.Host.entry0_x m ρ c, Cert.Sage.Host.entry0_wl m ρ c,
    Cert.Sage.Host.entry0_wr m ρ c, Cert.Sage.Host.entry0_b m ρ c,
    show (fun p => (V1 m ρ c main_v8 : S100000x1.Idx → EReal) (ix2 p 0)) = fun p => Cert.Sage.cntOf (m ((c : Thread nD τ).loc main_arg1)) (ix1 p)
      from funext (Cert.Sage.Host.entry0_cnt m ρ c)]
  rfl

/-- After the second call its output array holds the network of the arguments. -/
theorem out_eq (c : Dev nD) :
    (dat1 (V3 m ρ) c).arrAt 6 cfg1.N
      = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.Sage.Region1.final (V3 m ρ) c]
  show Cert.Sage.layer (V3 m ρ c main_v29) (fun p => (V3 m ρ c main_v8 : S100000x1.Idx → EReal) (ix2 p 0)) (V3 m ρ c main_v19)
      (V3 m ρ c main_arg5) (V3 m ρ c main_arg6) (V3 m ρ c main_arg7) = _
  rw [Cert.Sage.Host.entry1_agg m ρ c, Cert.Sage.Host.entry1_h m ρ c, hidden_eq m ρ c, Cert.Sage.Host.entry1_wl m ρ c,
    Cert.Sage.Host.entry1_wr m ρ c, Cert.Sage.Host.entry1_b m ρ c,
    show (fun p => (V3 m ρ c main_v8 : S100000x1.Idx → EReal) (ix2 p 0)) = fun p => Cert.Sage.cntOf (m ((c : Thread nD τ).loc main_arg1)) (ix1 p)
      from funext (Cert.Sage.Host.entry1_cnt m ρ c)]
  rfl

/-- The kernel program's run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v30)
        = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.Sage.Host.run_out m ρ)

end Cert.Sage.Kernel

end
-- ==== Proof.RefNet.lean ====
/-
  The reference's result is the network function.

  The reference computes, twice over, one graph layer with mean aggregation: it gathers the feature rows of the
  edges' source nodes, adds them into the rows of the edges' destination nodes, counts the edges that end in each
  node, divides the summed rows by that count (by one where no edge ends), multiplies the mean by one weight
  matrix and the node's own row by another, both transposed, and adds a bias; between the two layers it clamps
  at zero from below.

  Which row an edge reads and where it lands is decided by the edge table alone, so the gather and the two
  scatter-adds are never read at an index here: they are compared with the specification's `aggOf` and `cntOf`
  as whole arrays, and the two sides are the same expression in the same operations.  Everything after them is
  read entry by entry: at the entry (p, q) a product with a transposed matrix is the sum over k of the left
  operand at (p, k) times the matrix at (q, k), the count broadcast along a row is the count of node p, and the
  bias broadcast down the rows is the bias at q.  That is `layerAt` term for term.
-/
import proofs.«176702_j27633819583002_1_alg».proof.Proof.Gen.ReferenceIdeal.Read
import proofs.«176702_j27633819583002_1_alg».proof.Proof.Spec
import Idealize.ShloMosaic.Lib.ValueIdx
import Idealize.ShloMosaic.Lib.Pipeline.Value
import Idealize.ShloMosaic.PureOps.Ideal.Laws

noncomputable section

open scoped BigOperators

namespace Cert.Sage.Ref

open Idealize.ShloMosaic Idealize.ShloMosaic.ValueIdx Cert.ReferenceIdeal Cert.ReferenceIdeal.Read

/-! ## The edge-driven parts, as whole arrays

Each of the reference's scatter-adds is the specification's function of the same name of the same arguments:
both sides apply the same gather and scatter-add to the same source and destination words (row 0 and row 1 of
the edge table, a negative source word shifted by the number of nodes), the same zero array and the same array
of ones.  Nothing is evaluated: the two expressions agree operation by operation. -/

/-- The first layer's in-degrees are the specification's. -/
theorem v17_eq (x1 : Edges) : val_main_v17 (F := Ideal) x1 = cntOf x1 := rfl

/-- The first layer's summed incoming rows are the specification's, of the input features. -/
theorem v13_eq (x0 : Nodes) (x1 : Edges) : val_main_v13 (F := Ideal) x0 x1 = aggOf x1 x0 := rfl

/-- The second layer's in-degrees are the same in-degrees. -/
theorem v45_eq (x1 : Edges) : val_main_v45 (F := Ideal) x1 = cntOf x1 := rfl

/-- The second layer's summed incoming rows are the specification's, of the first layer's clamped output. -/
theorem v41_eq (x0 : Nodes) (x1 : Edges) (x2 x3 : Weights) (x4 : Bias) :
    val_main_v41 (F := Ideal) x0 x1 x2 x3 x4 = aggOf x1 (val_main_v31 (F := Ideal) x0 x1 x2 x3 x4) := rfl

/-! ## Where each operation of a layer reads, at the entry (p, q)

A contraction of (p, ·) with a transposed matrix's (·, q) reads the left operand at (p, k) and the matrix itself
at (q, k); the count broadcast along row p reads node p; the bias broadcast down column q reads entry q. -/

theorem lidx24 (p : Fin 100000) (q k : Fin 64) : lidx_main_v24 (ix2 p q) k = ix2 p k :=
  funext fun a => match a with | ⟨0, _⟩ => rfl | ⟨1, _⟩ => rfl
theorem ridx24 (p : Fin 100000) (q k : Fin 64) : ridx_main_v24 (ix2 p q) k = ix2 k q :=
  funext fun a => match a with | ⟨0, _⟩ => rfl | ⟨1, _⟩ => rfl
theorem idx23 (k q : Fin 64) : idx_main_v23 (ix2 k q) = ix2 q k :=
  funext fun a => match a with | ⟨0, _⟩ => rfl | ⟨1, _⟩ => rfl
theorem lidx26 (p : Fin 100000) (q k : Fin 64) : lidx_main_v26 (ix2 p q) k = ix2 p k :=
  funext fun a => match a with | ⟨0, _⟩ => rfl | ⟨1, _⟩ => rfl
theorem ridx26 (p : Fin 100000) (q k : Fin 64) : ridx_main_v26 (ix2 p q) k = ix2 k q :=
  funext fun a => match a with | ⟨0, _⟩ => rfl | ⟨1, _⟩ => rfl
theorem idx25 (k q : Fin 64) : idx_main_v25 (ix2 k q) = ix2 q k :=
  funext fun a => match a with | ⟨0, _⟩ => rfl | ⟨1, _⟩ => rfl
theorem idx20_21 (p : Fin 100000) (k : Fin 64) : idx_main_v20 (idx_main_v21 (ix2 p k)) = ix1 p :=
  funext fun a => match a with | ⟨0, _⟩ => rfl
theorem idx28_29 (p : Fin 100000) (q : Fin 64) : idx_main_v28 (idx_main_v29 (ix2 p q)) = ix1 q :=
  funext fun a => match a with | ⟨0, _⟩ => rfl

theorem lidx52 (p : Fin 100000) (q k : Fin 64) : lidx_main_v52 (ix2 p q) k = ix2 p k :=
  funext fun a => match a with | ⟨0, _⟩ => rfl | ⟨1, _⟩ => rfl
theorem ridx52 (p : Fin 100000) (q k : Fin 64) : ridx_main_v52 (ix2 p q) k = ix2 k q :=
  funext fun a => match a with | ⟨0, _⟩ => rfl | ⟨1, _⟩ => rfl
theorem idx51 (k q : Fin 64) : idx_main_v51 (ix2 k q) = ix2 q k :=
  funext fun a => match a with | ⟨0, _⟩ => rfl | ⟨1, _⟩ => rfl
theorem lidx54 (p : Fin 100000) (q k : Fin 64) : lidx_main_v54 (ix2 p q) k = ix2 p k :=
  funext fun a => match a with | ⟨0, _⟩ => rfl | ⟨1, _⟩ => rfl
theorem ridx54 (p : Fin 100000) (q k : Fin 64) : ridx_main_v54 (ix2 p q) k = ix2 k q :=
  funext fun a => match a with | ⟨0, _⟩ => rfl | ⟨1, _⟩ => rfl
theorem idx53 (k q : Fin 64) : idx_main_v53 (ix2 k q) = ix2 q k :=
  funext fun a => match a with | ⟨0, _⟩ => rfl | ⟨1, _⟩ => rfl
theorem idx48_49 (p : Fin 100000) (k : Fin 64) : idx_main_v48 (idx_main_v49 (ix2 p k)) = ix1 p :=
  funext fun a => match a with | ⟨0, _⟩ => rfl
theorem idx56_57 (p : Fin 100000) (q : Fin 64) : idx_main_v56 (idx_main_v57 (ix2 p q)) = ix1 q :=
  funext fun a => match a with | ⟨0, _⟩ => rfl

/-! ## The first layer -/

/-- The first layer's output at (p, q), over the summed rows and in-degrees it computed: the mean of the incoming
    rows against the first matrix, the node's own row against the second, the bias. -/
theorem layer1_at (x0 : Nodes) (x1 : Edges) (x2 x3 : Weights) (x4 : Bias) (p : Fin 100000) (q : Fin 64) :
    val_main_v30 (F := Ideal) x0 x1 x2 x3 x4 (ix2 p q)
      = layerAt (val_main_v13 (F := Ideal) x0 x1) (fun p => val_main_v17 (F := Ideal) x1 (ix1 p)) x0 x2 x3 x4 p q := by
  rw [val_main_v30_apply, val_main_v27_apply, val_main_v24_apply, val_main_v26_apply, val_main_v29_apply, val_main_v28_apply,
    Ideal.addf_def, Ideal.addf_def, idx28_29]
  unfold layerAt
  refine congrArg₂ (· + ·) (congrArg₂ (· + ·) (Finset.sum_congr rfl fun k _ => ?_) (Finset.sum_congr rfl fun k _ => ?_)) rfl
  · -- the mean at (p, k): the summed row's entry over the larger of node p's in-degree and one
    rw [lidx24, ridx24, val_main_v22_apply, val_main_v23_apply, idx23, val_main_v21_apply, val_main_v20_apply,
      val_main_v19_apply, val_main_v18_apply, val_main_cst_3_apply, Ideal.hostDivf_def, Ideal.maximumf_def, Ideal.ofBits_def,
      idx20_21]
  · rw [lidx26, ridx26, val_main_v25_apply, idx25]

/-- The first layer's output clamped at zero from below is the specification's hidden features. -/
theorem v31_eq (x0 : Nodes) (x1 : Edges) (x2 x3 : Weights) (x4 : Bias) :
    val_main_v31 (F := Ideal) x0 x1 x2 x3 x4 = hidden x0 x1 x2 x3 x4 := by
  funext i
  obtain ⟨p, q, rfl⟩ : ∃ (p : Fin 100000) (q : Fin 64), i = ix2 p q := ⟨i 0, i 1, ValueIdx.eq_ix2 i⟩
  rw [val_main_v31_apply, layer1_at, val_main_call0_v0_apply, val_main_call0_cst_apply, Ideal.maximumf_def, Ideal.ofBits_def,
    v13_eq, v17_eq]
  rfl

/-! ## The second layer -/

/-- The second layer's output at (p, q), over the summed rows and in-degrees it computed and the first layer's
    clamped output as node features. -/
theorem layer2_at (x0 : Nodes) (x1 : Edges) (x2 x3 : Weights) (x4 : Bias) (x5 x6 : Weights) (x7 : Bias)
    (p : Fin 100000) (q : Fin 64) :
    val_main_v58 (F := Ideal) x0 x1 x2 x3 x4 x5 x6 x7 (ix2 p q)
      = layerAt (val_main_v41 (F := Ideal) x0 x1 x2 x3 x4) (fun p => val_main_v45 (F := Ideal) x1 (ix1 p))
          (val_main_v31 (F := Ideal) x0 x1 x2 x3 x4) x5 x6 x7 p q := by
  rw [val_main_v58_apply, val_main_v55_apply, val_main_v52_apply, val_main_v54_apply, val_main_v57_apply, val_main_v56_apply,
    Ideal.addf_def, Ideal.addf_def, idx56_57]
  unfold layerAt
  refine congrArg₂ (· + ·) (congrArg₂ (· + ·) (Finset.sum_congr rfl fun k _ => ?_) (Finset.sum_congr rfl fun k _ => ?_)) rfl
  · rw [lidx52, ridx52, val_main_v50_apply, val_main_v51_apply, idx51, val_main_v49_apply, val_main_v48_apply,
      val_main_v47_apply, val_main_v46_apply, val_main_cst_9_apply, Ideal.hostDivf_def, Ideal.maximumf_def, Ideal.ofBits_def,
      idx48_49]
  · rw [lidx54, ridx54, val_main_v53_apply, idx53]

/-- The reference's result, as a function of its eight arguments, is the network. -/
theorem v58_is_net (x0 : Nodes) (x1 : Edges) (x2 x3 : Weights) (x4 : Bias) (x5 x6 : Weights) (x7 : Bias) :
    val_main_v58 (F := Ideal) x0 x1 x2 x3 x4 x5 x6 x7 = net x0 x1 x2 x3 x4 x5 x6 x7 := by
  funext i
  obtain ⟨p, q, rfl⟩ : ∃ (p : Fin 100000) (q : Fin 64), i = ix2 p q := ⟨i 0, i 1, ValueIdx.eq_ix2 i⟩
  rw [layer2_at, v41_eq, v45_eq, v31_eq]
  rfl

/-! ## The statement over the run's memory -/

/-- The array the reference's run leaves in its result buffer is the network of the eight argument buffers'
    contents at launch. -/
theorem ref_is_net (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v58 (F := Ideal) m c
      = Cert.Sage.net (m ((c.tc : Thread Cert.ReferenceIdeal.nD Cert.ReferenceIdeal.τ).loc Cert.ReferenceIdeal.main_arg0))
          (m ((c.tc : Thread _ _).loc Cert.ReferenceIdeal.main_arg1)) (m ((c.tc : Thread _ _).loc Cert.ReferenceIdeal.main_arg2))
          (m ((c.tc : Thread _ _).loc Cert.ReferenceIdeal.main_arg3)) (m ((c.tc : Thread _ _).loc Cert.ReferenceIdeal.main_arg4))
          (m ((c.tc : Thread _ _).loc Cert.ReferenceIdeal.main_arg5)) (m ((c.tc : Thread _ _).loc Cert.ReferenceIdeal.main_arg6))
          (m ((c.tc : Thread _ _).loc Cert.ReferenceIdeal.main_arg7)) :=
  (val_main_v58_eq m c).trans (v58_is_net _ _ _ _ _ _ _ _)

end Cert.Sage.Ref

end
-- ==== Proof.lean ====
/-
  The certificate's five claims.

  The two kernel programs' frames and the reference's are their generated runs.  The idealization rewrote no operation.
  On the extended reals both idealized programs end with ONE function of the arguments in their result arrays — two
  graph layers with mean aggregation, the first clamped at zero (`Cert.Sage.net`): the kernel program because each of
  its two calls writes, block of rows by block of rows, the layer's formula of the arrays the host's gather and
  scatter-add put in front of it, a product with the reciprocal of the clipped in-degree being the quotient by it; the
  reference because its operations, read entry by entry, are that formula term for term.
-/
import proofs.«176702_j27633819583002_1_alg».proof.Defs
import proofs.«176702_j27633819583002_1_alg».proof.Proof.Gen.Kernel
import proofs.«176702_j27633819583002_1_alg».proof.Proof.Gen.Kernel.Skeleton
import proofs.«176702_j27633819583002_1_alg».proof.Proof.Gen.Kernel.Launch
import proofs.«176702_j27633819583002_1_alg».proof.Proof.Gen.Kernel.Points
import proofs.«176702_j27633819583002_1_alg».proof.Proof.Gen.Kernel.Frame
import proofs.«176702_j27633819583002_1_alg».proof.Proof.Gen.KernelIdeal
import proofs.«176702_j27633819583002_1_alg».proof.Proof.Gen.KernelIdeal.Skeleton
import proofs.«176702_j27633819583002_1_alg».proof.Proof.Gen.KernelIdeal.Launch
import proofs.«176702_j27633819583002_1_alg».proof.Proof.Gen.KernelIdeal.Points
import proofs.«176702_j27633819583002_1_alg».proof.Proof.Gen.KernelIdeal.Frame
import proofs.«176702_j27633819583002_1_alg».proof.Proof.Gen.ReferenceIdeal
import proofs.«176702_j27633819583002_1_alg».proof.Proof.Gen.Pre_finite_inputs
import proofs.«176702_j27633819583002_1_alg».proof.Proof.Gen.ReferenceIdeal.Run
import proofs.«176702_j27633819583002_1_alg».proof.Proof.Gen.ReferenceIdeal.Read
import proofs.«176702_j27633819583002_1_alg».proof.Proof.KernelNet
import proofs.«176702_j27633819583002_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the network of the arguments in their result arrays. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Ref.ref_is_net m' c]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
